-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S800000 .f32) (main_arg2 : FVec F S128x128 .f32) (main_arg3 : FVec F S128 .f32) (main_arg4 : FVec F S128x64 .f32) (main_arg5 : FVec F S64 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S10000x128 : Shape := ⟨2, ![10000, 128]⟩
abbrev S10000x1 : Shape := ⟨2, ![10000, 1]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S10000x64 : Shape := ⟨2, ![10000, 64]⟩
abbrev S1x64 : Shape := ⟨2, ![1, 64]⟩

abbrev nBuf : Space → Nat
  | .hbm => 85
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![85], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S850000_S850000x1 : S850000.ShapeCasts S850000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S850000x128.size a
  hwx1_0 : ∀ i : grid1.Coords, EltTy.bits .f32 = 32 ∨ (Rect.block (s := S850000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S850000x128.size a
  hwx1_2 : ∀ i : grid1.Coords, EltTy.bits .f32 = 32 ∨ (Rect.block (s := S850000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S850000x64.size a
  hwx4_0 : ∀ i : grid4.Coords, EltTy.bits .f32 = 32 ∨ (Rect.block (s := S850000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S850000x1.size a
  hwx4_1 : ∀ i : grid4.Coords, EltTy.bits .f32 = 32 ∨ (Rect.block (s := S850000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S850000x64.size a
  hwx4_2 : ∀ i : grid4.Coords, EltTy.bits .f32 = 32 ∨ (Rect.block (s := S850000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its two results named.

  The program is thirteen segments: stretches of host operations and six tiled regions. Every weakly fair execution
  runs them in order, terminates without a fault and ends with every buffer of the tensor core at the contents the
  last segment boundary names; so each result buffer ends at the fold of the segments over the launch memory, read
  at that buffer, and the arguments end as launched.
-/
import proofs.«155307_j64836826300546_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each result buffer at the last boundary's contents and the
    arguments as launched. -/
theorem run_named : θ_run defs (onTc (τ := τ) (main (F := F))) ⟨m, fun _ => 0, ρ⟩ (fun r => ∀ c : Dev nD,
      r.2.mem ((c.tc : Thread nD τ).loc main_v46) = W13 m ρ c (Proc.devRef .tc main_v46)
      ∧ r.2.mem ((c.tc : Thread nD τ).loc main_v61) = W13 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v46 (by decide)), h c _ (mem_uc main_v61 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Named

end
-- ==== Proof.Stages0.lean ====
/-
  The degree normalisation, as the idealized kernel computes it before its first tiled region.

  The source and destination index vectors (the given edges followed by one self loop per node), the edge weights
  followed by a one per self loop, the weighted in-degree, its reciprocal square root where positive, and the per-edge
  coefficient dinv[src] * weight * dinv[dst] are computed by the same host operations, in the same order, as in the
  reference. The operations come in three stretches; each is read over an arbitrary state of the buffers, and the
  three are then chained from the launch memory. At the first region's entry the two index vectors and the coefficient
  hold the reference's stages of the arguments, and the argument arrays are as launched.
-/
import proofs.«155307_j64836826300546_2_alg».proof.Proof.Gen.KernelIdeal.Frame
import proofs.«155307_j64836826300546_2_alg».proof.Proof.Gen.ReferenceIdeal.Read
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A buffer that no operation of a stretch of host operations writes keeps its contents across the stretch. -/
macro "not_written_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The three stretches over any buffer contents -/

section Generic

variable (V : Valuation τ sig (Elt Ideal))

theorem H0_main_v5 : StableHlo.after hostOps0 V (Proc.devRef .tc main_v5) = Cert.ReferenceIdeal.Read.val_main_v5 (F := Ideal) (V (Proc.devRef .tc main_arg6)) := by
  dsimp only [hostOps0]
  after_results_simp
  rfl

theorem H0_main_v6 : StableHlo.after hostOps0 V (Proc.devRef .tc main_v6) = Cert.ReferenceIdeal.Read.val_main_v6 (F := Ideal) (V (Proc.devRef .tc main_arg6)) := by
  dsimp only [hostOps0]
  after_results_simp
  rfl

theorem H0_main_v8 : StableHlo.after hostOps0 V (Proc.devRef .tc main_v8) = Cert.ReferenceIdeal.Read.val_main_v8 (F := Ideal) (V (Proc.devRef .tc main_arg1)) := by
  dsimp only [hostOps0]
  after_results_simp
  rfl

theorem H0_main_v13 : StableHlo.after hostOps0 V (Proc.devRef .tc main_v13) = Cert.ReferenceIdeal.Read.val_main_v13 (F := Ideal) (V (Proc.devRef .tc main_arg1)) (V (Proc.devRef .tc main_arg6)) := by
  dsimp only [hostOps0]
  after_results_simp
  rfl

theorem H0_main_v14 : StableHlo.after hostOps0 V (Proc.devRef .tc main_v14) = Cert.ReferenceIdeal.Read.val_main_v14 (F := Ideal) (V (Proc.devRef .tc main_arg1)) (V (Proc.devRef .tc main_arg6)) := by
  dsimp only [hostOps0]
  after_results_simp
  rfl

theorem H0_main_cst_2 : StableHlo.after hostOps0 V (Proc.devRef .tc main_cst_2) = Cert.ReferenceIdeal.Read.val_main_cst_2 (F := Ideal) := by
  dsimp only [hostOps0]
  after_results_simp
  rfl

/-- The guarded reciprocal square root of the degree: where the degree is positive its reciprocal root, zero
    elsewhere. -/
theorem H1_main_v15 : StableHlo.after hostOps0_1 V (Proc.devRef .tc main_v15)
    = select (V (Proc.devRef .tc main_v13)) (V (Proc.devRef .tc main_v14))
        (broadcastInDim S50000 ![] bcast_S_S50000 (id (V (Proc.devRef .tc main_cst_2)))) := by
  dsimp only [hostOps0_1]
  after_results_simp
  rfl

/-- A signed index vector with the extent added where negative, as a column: the index operand of a gather. -/
def wrapIdx (idx : IVec S850000 32) : IVec S850000x1 32 :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- The per-edge coefficient from the two index vectors, the weights and the guarded reciprocal root. -/
def coeff (src dst : IVec S850000 32) (w : FVec Ideal S850000 .f32) (dinv : FVec Ideal S50000 .f32) :
    FVec Ideal S850000 .f32 :=
  mulf (mulf (Host.gather gather_S50000_S850000x1_S850000_n_0_n_n_0_1_1 dinv (wrapIdx src)) w)
    (Host.gather gather_S50000_S850000x1_S850000_n_0_n_n_0_1_1 dinv (wrapIdx dst))

theorem H2_main_v31 : StableHlo.after hostOps0_2 V (Proc.devRef .tc main_v31)
    = coeff (V (Proc.devRef .tc main_v5)) (V (Proc.devRef .tc main_v6)) (V (Proc.devRef .tc main_v8))
        (V (Proc.devRef .tc main_v15)) := by
  dsimp only [hostOps0_2]
  after_results_simp
  rfl

end Generic

/-- The coefficient of the reference's index vectors, weights and guarded root is the reference's coefficient. -/
theorem coeff_ref (x1 : (⟨Cert.ReferenceIdeal.S800000, .f32⟩ : BufTy).Contents (Elt Ideal))
    (x6 : (⟨Cert.ReferenceIdeal.S2x800000, .i32⟩ : BufTy).Contents (Elt Ideal)) :
    coeff (Cert.ReferenceIdeal.Read.val_main_v5 (F := Ideal) x6) (Cert.ReferenceIdeal.Read.val_main_v6 (F := Ideal) x6) (Cert.ReferenceIdeal.Read.val_main_v8 (F := Ideal) x1)
        (Cert.ReferenceIdeal.Read.val_main_v15 (F := Ideal) x1 x6) = Cert.ReferenceIdeal.Read.val_main_v31 (F := Ideal) x1 x6 := rfl

/-! ## Chained from the launch memory: the first region's entry -/

theorem K3_main_arg0 : W3 m ρ c (Proc.devRef .tc main_arg0) = (m ((c : Thread nD τ).loc main_arg0)) :=
  (show W3 m ρ c (Proc.devRef .tc main_arg0) = W2 m ρ c (Proc.devRef .tc main_arg0) from by not_written_by hostOps0_2).trans
    ((show W2 m ρ c (Proc.devRef .tc main_arg0) = W1 m ρ c (Proc.devRef .tc main_arg0) from by not_written_by hostOps0_1).trans
      ((show W1 m ρ c (Proc.devRef .tc main_arg0) = W0 m ρ c (Proc.devRef .tc main_arg0) from by not_written_by hostOps0).trans rfl))

theorem K3_main_arg2 : W3 m ρ c (Proc.devRef .tc main_arg2) = (m ((c : Thread nD τ).loc main_arg2)) :=
  (show W3 m ρ c (Proc.devRef .tc main_arg2) = W2 m ρ c (Proc.devRef .tc main_arg2) from by not_written_by hostOps0_2).trans
    ((show W2 m ρ c (Proc.devRef .tc main_arg2) = W1 m ρ c (Proc.devRef .tc main_arg2) from by not_written_by hostOps0_1).trans
      ((show W1 m ρ c (Proc.devRef .tc main_arg2) = W0 m ρ c (Proc.devRef .tc main_arg2) from by not_written_by hostOps0).trans rfl))

theorem K3_main_arg3 : W3 m ρ c (Proc.devRef .tc main_arg3) = (m ((c : Thread nD τ).loc main_arg3)) :=
  (show W3 m ρ c (Proc.devRef .tc main_arg3) = W2 m ρ c (Proc.devRef .tc main_arg3) from by not_written_by hostOps0_2).trans
    ((show W2 m ρ c (Proc.devRef .tc main_arg3) = W1 m ρ c (Proc.devRef .tc main_arg3) from by not_written_by hostOps0_1).trans
      ((show W1 m ρ c (Proc.devRef .tc main_arg3) = W0 m ρ c (Proc.devRef .tc main_arg3) from by not_written_by hostOps0).trans rfl))

theorem K3_main_arg4 : W3 m ρ c (Proc.devRef .tc main_arg4) = (m ((c : Thread nD τ).loc main_arg4)) :=
  (show W3 m ρ c (Proc.devRef .tc main_arg4) = W2 m ρ c (Proc.devRef .tc main_arg4) from by not_written_by hostOps0_2).trans
    ((show W2 m ρ c (Proc.devRef .tc main_arg4) = W1 m ρ c (Proc.devRef .tc main_arg4) from by not_written_by hostOps0_1).trans
      ((show W1 m ρ c (Proc.devRef .tc main_arg4) = W0 m ρ c (Proc.devRef .tc main_arg4) from by not_written_by hostOps0).trans rfl))

theorem K3_main_arg5 : W3 m ρ c (Proc.devRef .tc main_arg5) = (m ((c : Thread nD τ).loc main_arg5)) :=
  (show W3 m ρ c (Proc.devRef .tc main_arg5) = W2 m ρ c (Proc.devRef .tc main_arg5) from by not_written_by hostOps0_2).trans
    ((show W2 m ρ c (Proc.devRef .tc main_arg5) = W1 m ρ c (Proc.devRef .tc main_arg5) from by not_written_by hostOps0_1).trans
      ((show W1 m ρ c (Proc.devRef .tc main_arg5) = W0 m ρ c (Proc.devRef .tc main_arg5) from by not_written_by hostOps0).trans rfl))

theorem K1_main_v5 : W1 m ρ c (Proc.devRef .tc main_v5) = Cert.ReferenceIdeal.Read.val_main_v5 (F := Ideal) (m ((c : Thread nD τ).loc main_arg6)) := H0_main_v5 (W0 m ρ c)
theorem K1_main_v6 : W1 m ρ c (Proc.devRef .tc main_v6) = Cert.ReferenceIdeal.Read.val_main_v6 (F := Ideal) (m ((c : Thread nD τ).loc main_arg6)) := H0_main_v6 (W0 m ρ c)
theorem K1_main_v8 : W1 m ρ c (Proc.devRef .tc main_v8) = Cert.ReferenceIdeal.Read.val_main_v8 (F := Ideal) (m ((c : Thread nD τ).loc main_arg1)) := H0_main_v8 (W0 m ρ c)
theorem K1_main_v13 : W1 m ρ c (Proc.devRef .tc main_v13) = Cert.ReferenceIdeal.Read.val_main_v13 (F := Ideal) (m ((c : Thread nD τ).loc main_arg1)) (m ((c : Thread nD τ).loc main_arg6)) := H0_main_v13 (W0 m ρ c)
theorem K1_main_v14 : W1 m ρ c (Proc.devRef .tc main_v14) = Cert.ReferenceIdeal.Read.val_main_v14 (F := Ideal) (m ((c : Thread nD τ).loc main_arg1)) (m ((c : Thread nD τ).loc main_arg6)) := H0_main_v14 (W0 m ρ c)
theorem K1_main_cst_2 : W1 m ρ c (Proc.devRef .tc main_cst_2) = Cert.ReferenceIdeal.Read.val_main_cst_2 (F := Ideal) := H0_main_cst_2 (W0 m ρ c)

theorem K2_main_v5 : W2 m ρ c (Proc.devRef .tc main_v5) = Cert.ReferenceIdeal.Read.val_main_v5 (F := Ideal) (m ((c : Thread nD τ).loc main_arg6)) :=
  (show W2 m ρ c (Proc.devRef .tc main_v5) = W1 m ρ c (Proc.devRef .tc main_v5) from by not_written_by hostOps0_1).trans (K1_main_v5 m ρ c)
theorem K2_main_v6 : W2 m ρ c (Proc.devRef .tc main_v6) = Cert.ReferenceIdeal.Read.val_main_v6 (F := Ideal) (m ((c : Thread nD τ).loc main_arg6)) :=
  (show W2 m ρ c (Proc.devRef .tc main_v6) = W1 m ρ c (Proc.devRef .tc main_v6) from by not_written_by hostOps0_1).trans (K1_main_v6 m ρ c)
theorem K2_main_v8 : W2 m ρ c (Proc.devRef .tc main_v8) = Cert.ReferenceIdeal.Read.val_main_v8 (F := Ideal) (m ((c : Thread nD τ).loc main_arg1)) :=
  (show W2 m ρ c (Proc.devRef .tc main_v8) = W1 m ρ c (Proc.devRef .tc main_v8) from by not_written_by hostOps0_1).trans (K1_main_v8 m ρ c)

theorem K2_main_v15 : W2 m ρ c (Proc.devRef .tc main_v15) = Cert.ReferenceIdeal.Read.val_main_v15 (F := Ideal) (m ((c : Thread nD τ).loc main_arg1)) (m ((c : Thread nD τ).loc main_arg6)) := by
  refine (H1_main_v15 (W1 m ρ c)).trans ?_
  rw [K1_main_v13, K1_main_v14, K1_main_cst_2]
  rfl

theorem K3_main_v5 : W3 m ρ c (Proc.devRef .tc main_v5) = Cert.ReferenceIdeal.Read.val_main_v5 (F := Ideal) (m ((c : Thread nD τ).loc main_arg6)) :=
  (show W3 m ρ c (Proc.devRef .tc main_v5) = W2 m ρ c (Proc.devRef .tc main_v5) from by not_written_by hostOps0_2).trans (K2_main_v5 m ρ c)
theorem K3_main_v6 : W3 m ρ c (Proc.devRef .tc main_v6) = Cert.ReferenceIdeal.Read.val_main_v6 (F := Ideal) (m ((c : Thread nD τ).loc main_arg6)) :=
  (show W3 m ρ c (Proc.devRef .tc main_v6) = W2 m ρ c (Proc.devRef .tc main_v6) from by not_written_by hostOps0_2).trans (K2_main_v6 m ρ c)

theorem K3_main_v31 : W3 m ρ c (Proc.devRef .tc main_v31) = Cert.ReferenceIdeal.Read.val_main_v31 (F := Ideal) (m ((c : Thread nD τ).loc main_arg1)) (m ((c : Thread nD τ).loc main_arg6)) := by
  refine (H2_main_v31 (W2 m ρ c)).trans ?_
  rw [K2_main_v5, K2_main_v6, K2_main_v8, K2_main_v15]
  exact coeff_ref _ _

end Cert.KernelIdeal.Stages

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«155307_j64836826300546_2_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.Region0.lean ====
/-
  The first dense product, block by block.

  The rows of the node features are cut into ten blocks of 5000 rows; the weight is read whole at every block. Block
  t of the product holds, at (p, q), the sum over k of x (5000 t + p, k) * w (k, q): rounding the operands to a
  narrower float format is the identity on extended reals, so this is entry (5000 t + p, q) of the whole product of
  the two arrays. The ten blocks tile the 50000 rows, so the array written back is the whole product.
-/
import proofs.«155307_j64836826300546_2_alg».proof.Proof.Gen.KernelIdeal.Frame
import proofs.«155307_j64836826300546_2_alg».proof.Proof.LibRowBlocks
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the node features and the weight. -/
abbrev G (X : FVec Ideal S50000x128 .f32) (W : FVec Ideal S128x128 .f32) : FVec Ideal S50000x128 .f32 :=
  Host.dotGeneral (F := Ideal) (DotDims.plain 50000 128 128) none X W

/-- A block of rows of the product is the whole product at those rows. -/
theorem pay_apply (x0 : Vec Ideal S5000x128 .f32) (x1 : Vec Ideal S128x128 .f32) (X : FVec Ideal S50000x128 .f32)
    (W : FVec Ideal S128x128 .f32) (row : Fin 5000 → Fin 50000) (hx : ∀ p k, x0 (ix2 p k) = X (ix2 (row p) k))
    (hw : ∀ k q, x1 (ix2 k q) = W (ix2 k q)) (p : Fin 5000) (q : Fin 128) :
    k0_pay1 x0 x1 (ix2 p q) = G X W (ix2 (row p) q) := by
  unfold k0_pay1
  exact Cert.Lib.RowBlocks.matmul_rows_apply (ψ := .bf16) bitsLt_bf16_f32 x0 x1 X W row hx hw p q

/-- Where the three windows' blocks sit at grid point t: block row t of the features and of the product, the
    weight's one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

theorem N_eq : cfg0.N = 10 := by decide

/-- What grid point t writes back is block t of the whole product. -/
theorem flushed_eq (c : Dev nD) (t : Fin cfg0.N) :
    (dat0 V c).flushed 2 t = ((cfg0.win 2).blk t).view.read (Elt Ideal)
      (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, ht⟩ := idx_facts t
  funext j
  obtain ⟨p, q, rfl⟩ : ∃ (p : Fin 5000) (q : Fin 128), j = ix2 p q := ⟨j 0, j 1, eq_ix2 j⟩
  have hrow : ∀ p : Fin 5000, t.val * 5000 + p.val < 50000 := fun p => by have := p.isLt; omega
  have hemb : ((cfg0.win 2).blk t).view.emb (ix2 p q) = ix2 (⟨t.val * 5000 + p.val, hrow p⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = G _ _ (((cfg0.win 2).blk t).view.emb (ix2 p q))
  rw [hemb]
  refine pay_apply (iblk0 V c 0 t) (iblk0 V c 1 t) _ _ (fun p => ⟨t.val * 5000 + p.val, hrow p⟩) ?_ ?_ p q
  · intro p k
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the product lies in block t exactly when its row is among the block's 5000 rows. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The ten blocks cover the array: row r is in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [N_eq]; omega⟩, flush0_2 _, ?_⟩
  rw [mem_blk]
  obtain ⟨e0, e1, e2, e3, e4, e5, ht⟩ := idx_facts ⟨(i 0).val / 5000, by rw [N_eq]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The array the first product leaves: the whole product of the two arrays the region was entered with. -/
theorem final (c : Dev nD) :
    (dat0 V c).arrAt 2 cfg0.N = G (V c (Pipeline.arrRef spec0 0)) (V c (Pipeline.arrRef spec0 1)) :=
  (dat0 V c).arrAt_eq_of_cover 2 _ (fun t _ => flushed_eq V c t) cover

end Cert.KernelIdeal.Region0

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.Region1.lean ====
/-
  The edge scale of a layer, block by block.

  The 850000 edges (self loops included) are cut into 85 blocks of 10000; a block holds the rows the gather brought for
  its edges, and the same edges' coefficients as a column. Block t of the result holds, at (p, q), the message entry
  times the coefficient of edge 10000 t + p, which is entry (10000 t + p, q) of the whole array of messages times the
  column of coefficients spread over the 128 features. The blocks tile the edges, so the array written back is that
  whole product.
-/
import proofs.«155307_j64836826300546_2_alg».proof.Proof.Gen.KernelIdeal.Frame
import proofs.«155307_j64836826300546_2_alg».proof.Proof.LibColBroadcast
import proofs.«155307_j64836826300546_2_alg».proof.Proof.LibEdgeReads
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Each edge's row of messages times the edge's coefficient, as one array. -/
abbrev G (g : FVec Ideal S850000x128 .f32) (col : FVec Ideal S850000x1 .f32)
    (hb : S850000x1.BroadcastsInDim S850000x128 (![0, 1] : Fin 2 → Fin S850000x128.rank)) : FVec Ideal S850000x128 .f32 :=
  mulf g (broadcastInDim S850000x128 ![0, 1] hb col)

/-- A block of edges of the scaled messages is the whole array at those edges. -/
theorem pay_apply (x1 : Vec Ideal S10000x1 .f32) (x0 : Vec Ideal S10000x128 .f32) (g : FVec Ideal S850000x128 .f32)
    (col : FVec Ideal S850000x1 .f32) (hb : S850000x1.BroadcastsInDim S850000x128 (![0, 1] : Fin 2 → Fin S850000x128.rank))
    (row : Fin 10000 → Fin 850000) (hg : ∀ p q, x0 (ix2 p q) = g (ix2 (row p) q))
    (hc : ∀ p, x1 (ix2 p (0 : Fin 1)) = col (ix2 (row p) (0 : Fin 1))) (p : Fin 10000) (q : Fin 128) :
    k1_pay1 x1 x0 (ix2 p q) = G g col hb (ix2 (row p) q) := by
  unfold k1_pay1
  simp only [shapeCast_self]
  show _ = mulf g (broadcastInDim S850000x128 ![0, 1] hb col) (ix2 (row p) q)
  rw [mulf_apply, mulf_apply, Cert.Lib.ColBroadcast.broadcastTo_a1_ab_apply, Cert.Lib.EdgeReads.column_broadcast_apply, hg, hc]

/-- Where the three windows' blocks sit at grid point t: block row t of each array. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 ∧ t.val < 85 :=
  (by decide +kernel : ∀ t : Fin grid1.N, _)

theorem N_eq : cfg1.N = 85 := by decide

/-- What grid point t writes back is block t of the whole scaled array. -/
theorem flushed_eq (hb : S850000x1.BroadcastsInDim S850000x128 (![0, 1] : Fin 2 → Fin S850000x128.rank)) (c : Dev nD) (t : Fin cfg1.N) :
    (dat1 V c).flushed 2 t = ((cfg1.win 2).blk t).view.read (Elt Ideal)
      (G (V c (Pipeline.arrRef spec1 0)) (V c (Pipeline.arrRef spec1 1)) hb) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5, ht⟩ := idx_facts t
  funext j
  obtain ⟨p, q, rfl⟩ : ∃ (p : Fin 10000) (q : Fin 128), j = ix2 p q := ⟨j 0, j 1, eq_ix2 j⟩
  have hrow : ∀ p : Fin 10000, t.val * 10000 + p.val < 850000 := fun p => by have := p.isLt; omega
  have hemb : ((cfg1.win 2).blk t).view.emb (ix2 p q) = ix2 (⟨t.val * 10000 + p.val, hrow p⟩ : Fin 850000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show k1_pay1 (iblk1 V c 1 t) (iblk1 V c 0 t) (ix2 p q) = G _ _ hb (((cfg1.win 2).blk t).view.emb (ix2 p q))
  rw [hemb]
  refine pay_apply (iblk1 V c 1 t) (iblk1 V c 0 t) _ _ hb (fun p => ⟨t.val * 10000 + p.val, hrow p⟩) ?_ ?_ p q
  · intro p q
    show V c (Pipeline.arrRef spec1 0) (((cfg1.win 0).blk t).view.emb (ix2 p q)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · intro p
    show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega

/-- An index of the array lies in block t exactly when its row is among the block's 10000 rows. -/
theorem mem_blk (t : Fin cfg1.N) (i : S850000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v41).slice (win1_2.rect t)).set ↔ _
  rw [View.set_slice_whole, Rect.mem_set_unit]
  exact Iff.rfl

/-- The 85 blocks cover the array: row r is in block r / 10000. -/
theorem cover (i : S850000x128.Idx) :
    ∃ t : Fin cfg1.N, (cfg1.win 2).flush t = true ∧ i ∈ ((cfg1.win 2).blk t).view.set := by
  have hi0 : (i 0).val < 850000 := (i 0).isLt
  have hi1 : (i 1).val < 128 := (i 1).isLt
  refine ⟨⟨(i 0).val / 10000, by rw [N_eq]; omega⟩, flush1_2 _, ?_⟩
  rw [mem_blk]
  obtain ⟨e0, e1, e2, e3, e4, e5, ht⟩ := idx_facts ⟨(i 0).val / 10000, by rw [N_eq]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e5]; omega

/-- The array the edge scale leaves: the messages times the spread column of coefficients, of the two arrays the
    region was entered with. -/
theorem final (hb : S850000x1.BroadcastsInDim S850000x128 (![0, 1] : Fin 2 → Fin S850000x128.rank)) (c : Dev nD) :
    (dat1 V c).arrAt 2 cfg1.N = G (V c (Pipeline.arrRef spec1 0)) (V c (Pipeline.arrRef spec1 1)) hb :=
  (dat1 V c).arrAt_eq_of_cover 2 _ (fun t _ => flushed_eq V hb c t) cover

end Cert.KernelIdeal.Region1

end
-- ==== Proof.LibRowBroadcastInDim.lean ====
/-
  A one-row array spread over many rows by the host's broadcast along both axes, read at an index, over arbitrary
  extents: a `[1, b]` row broadcast to `[a, b]` reads, at `(e, c)`, the row at `(0, c)`. (The column form, an `[a, 1]`
  column broadcast to `[a, b]`, is in LibEdgeReads; the kernel's `vector.broadcast` of a row is the library's.)
-/
import Idealize.ShloMosaic.Lib.Pipeline.Value
import Idealize.ShloMosaic.Lib.ValueIdx

namespace Cert.Lib.RowBroadcastInDim

open Idealize.ShloMosaic Idealize.ShloMosaic.ValueIdx

variable {α : Type}

/-- A row broadcast down the rows: at `(e, c)` the row at `(0, c)`. -/
theorem row_broadcast_apply {a b : ℕ} (x : (⟨2, ![1, b]⟩ : Shape).Idx → α)
    (h : (⟨2, ![1, b]⟩ : Shape).BroadcastsInDim ⟨2, ![a, b]⟩ ![0, 1]) (e : Fin a) (c : Fin b) :
    broadcastInDim ⟨2, ![a, b]⟩ ![0, 1] h x (ix2 e c) = x (ix2 (0 : Fin 1) c) :=
  broadcastInDim_apply _ h x _ _ fun d => by
    match d with
    | ⟨0, _⟩ =>
      show (0 : ℕ) = if (1 : ℕ) = 1 then 0 else e.val
      rw [if_pos rfl]
    | ⟨1, _⟩ =>
      show c.val = if b = 1 then 0 else c.val
      split
      · have := c.isLt; omega
      · rfl

end Cert.Lib.RowBroadcastInDim
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.LibReshapeBroadcast.lean ====
/-
  A reshape that adds a unit axis is the broadcast that adds it, over arbitrary extents and any element type; and a
  scalar splat read at an index.

  * A scalar splat to any shape reads the scalar's value at every index.
  * A vector of length a laid out as an [a, 1] column by a reshape is the same array as the vector made a column by
    a broadcast along axis 0: both read the vector at e at the index (e, 0).
  * A vector of length b laid out as a [1, b] row by a reshape is the same array as the vector made a row by a
    broadcast along axis 1: both read the vector at q at the index (0, q).
-/
import Idealize.ShloMosaic.Lib.Pipeline.Value
import Idealize.ShloMosaic.Lib.ValueIdx
import proofs.«155307_j64836826300546_2_alg».proof.Proof.LibEdgeReads
import proofs.«155307_j64836826300546_2_alg».proof.Proof.LibColumnReshape
import proofs.«155307_j64836826300546_2_alg».proof.Proof.LibPadReads

noncomputable section

namespace Cert.Lib.ReshapeBroadcast

open Idealize.ShloMosaic Idealize.ShloMosaic.ValueIdx

/-- A float scalar constant broadcast to any shape reads, everywhere, the extended real its word encodes. -/
theorem splat_apply {t : Shape} (h : (⟨0, ![]⟩ : Shape).BroadcastsInDim t ![]) (w : BitVec (FTy.bits .f32)) (j : t.Idx) :
    broadcastInDim t ![] h (constant (F := Ideal) ⟨0, ![]⟩ .f32 w) j = Ideal.ofBits .f32 w :=
  (broadcastInDim_apply (s := ⟨0, ![]⟩) ![] h _ j (fun a => a.elim0) (fun a => a.elim0)).trans rfl

/-- A vector made a row by a broadcast along axis 1: at (u, q) the vector at q. -/
theorem row_of_vector_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x _ _ fun d => by
    match d with
    | ⟨0, _⟩ =>
      show q.val = if b = 1 then 0 else q.val
      split
      · have := q.isLt; omega
      · rfl

/-- The reshape of a vector to a column and its broadcast to a column are one array. -/
theorem reshape_col_eq_broadcast {α : Type} {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨e, u, rfl⟩ : ∃ (e : Fin a) (u : Fin 1), j = ix2 e u := ⟨j 0, j 1, eq_ix2 j⟩
  obtain rfl : u = 0 := Subsingleton.elim _ _
  rw [Cert.Lib.ColumnReshape.reshape_col_apply, Cert.Lib.EdgeReads.column_of_vector_apply]

/-- The reshape of a vector to a row and its broadcast to a row are one array. -/
theorem reshape_row_eq_broadcast {α : Type} {b : ℕ} (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, q, rfl⟩ : ∃ (u : Fin 1) (q : Fin b), j = ix2 u q := ⟨j 0, j 1, eq_ix2 j⟩
  obtain rfl : u = 0 := Subsingleton.elim _ _
  rw [Cert.Lib.PadReads.reshape_row_apply, row_of_vector_apply]

end Cert.Lib.ReshapeBroadcast

end
-- ==== Proof.Region2.lean ====
/-
  The bias and the positive part of a layer, block by block.

  The 50000 nodes are cut into 10 blocks of 5000; the bias is one row read whole at every block. Block t of the result
  holds, at (p, q), the aggregated entry of node 5000 t + p plus the bias at q, or zero when that is negative: entry
  (5000 t + p, q) of the whole array plus the bias row spread down the nodes, maximised against a zero splat. The
  blocks tile the nodes, so the array written back is that whole array.
-/
import proofs.«155307_j64836826300546_2_alg».proof.Proof.Gen.KernelIdeal.Frame
import proofs.«155307_j64836826300546_2_alg».proof.Proof.LibRowBroadcastInDim
import proofs.«155307_j64836826300546_2_alg».proof.Proof.LibReshapeBroadcast
import Idealize.ShloMosaic.Lib.Pipeline.Value
import Idealize.ShloMosaic.Lib.ValueIdx
import Idealize.ShloMosaic.Lib.ValueLayout

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The aggregated features plus the bias row spread down the nodes, then the maximum with zero, as one array. -/
abbrev G (A : FVec Ideal S50000x128 .f32) (brow : FVec Ideal S1x128 .f32)
    (hb : S1x128.BroadcastsInDim S50000x128 (![0, 1] : Fin 2 → Fin S50000x128.rank)) (h0 : S_.BroadcastsInDim S50000x128 (![] : Fin 0 → Fin S50000x128.rank)) : FVec Ideal S50000x128 .f32 :=
  maximumf (addf A (broadcastInDim S50000x128 ![0, 1] hb brow)) (broadcastInDim S50000x128 ![] h0 (constant S_ .f32 0x00000000#32))

/-- A block of nodes of the layer's output is the whole array at those nodes. -/
theorem pay_apply (x0 : Vec Ideal S5000x128 .f32) (x1 : Vec Ideal S1x128 .f32) (A : FVec Ideal S50000x128 .f32)
    (brow : FVec Ideal S1x128 .f32) (hb : S1x128.BroadcastsInDim S50000x128 (![0, 1] : Fin 2 → Fin S50000x128.rank)) (h0 : S_.BroadcastsInDim S50000x128 (![] : Fin 0 → Fin S50000x128.rank))
    (row : Fin 5000 → Fin 50000) (hx : ∀ p q, x0 (ix2 p q) = A (ix2 (row p) q))
    (hr : ∀ q, x1 (ix2 (0 : Fin 1) q) = brow (ix2 (0 : Fin 1) q)) (p : Fin 5000) (q : Fin 128) :
    k2_pay1 x0 x1 (ix2 p q) = G A brow hb h0 (ix2 (row p) q) := by
  unfold k2_pay1
  simp only [shapeCast_self]
  show _ = maximumf (addf A (broadcastInDim S50000x128 ![0, 1] hb brow)) (broadcastInDim S50000x128 ![] h0 (constant S_ .f32 0x00000000#32)) (ix2 (row p) q)
  rw [maximumf_apply, maximumf_apply, addf_apply, addf_apply, broadcastTo_1b_ab_apply, broadcast_apply,
    Cert.Lib.RowBroadcastInDim.row_broadcast_apply, Cert.Lib.ReshapeBroadcast.splat_apply, hx, hr]
  rfl

/-- Where the three windows' blocks sit at grid point t: block row t of the aggregate and of the output, the bias
    row's one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

theorem N_eq : cfg2.N = 10 := by decide

/-- What grid point t writes back is block t of the whole output array. -/
theorem flushed_eq (hb : S1x128.BroadcastsInDim S50000x128 (![0, 1] : Fin 2 → Fin S50000x128.rank)) (h0 : S_.BroadcastsInDim S50000x128 (![] : Fin 0 → Fin S50000x128.rank)) (c : Dev nD) (t : Fin cfg2.N) :
    (dat2 V c).flushed 2 t = ((cfg2.win 2).blk t).view.read (Elt Ideal)
      (G (V c (Pipeline.arrRef spec2 0)) (V c (Pipeline.arrRef spec2 1)) hb h0) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5, ht⟩ := idx_facts t
  funext j
  obtain ⟨p, q, rfl⟩ : ∃ (p : Fin 5000) (q : Fin 128), j = ix2 p q := ⟨j 0, j 1, eq_ix2 j⟩
  have hrow : ∀ p : Fin 5000, t.val * 5000 + p.val < 50000 := fun p => by have := p.isLt; omega
  have hemb : ((cfg2.win 2).blk t).view.emb (ix2 p q) = ix2 (⟨t.val * 5000 + p.val, hrow p⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q) = G _ _ hb h0 (((cfg2.win 2).blk t).view.emb (ix2 p q))
  rw [hemb]
  refine pay_apply (iblk2 V c 0 t) (iblk2 V c 1 t) _ _ hb h0 (fun p => ⟨t.val * 5000 + p.val, hrow p⟩) ?_ ?_ p q
  · intro p q
    show V c (Pipeline.arrRef spec2 0) (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  · intro q
    show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega

/-- An index of the array lies in block t exactly when its row is among the block's 5000 rows. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The 10 blocks cover the array: row r is in block r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by rw [N_eq]; omega⟩, flush2_2 _, ?_⟩
  rw [mem_blk]
  obtain ⟨e0, e1, e2, e3, e4, e5, ht⟩ := idx_facts ⟨(i 0).val / 5000, by rw [N_eq]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- The array the layer's last step leaves, of the two arrays the region was entered with. -/
theorem final (hb : S1x128.BroadcastsInDim S50000x128 (![0, 1] : Fin 2 → Fin S50000x128.rank)) (h0 : S_.BroadcastsInDim S50000x128 (![] : Fin 0 → Fin S50000x128.rank)) (c : Dev nD) :
    (dat2 V c).arrAt 2 cfg2.N = G (V c (Pipeline.arrRef spec2 0)) (V c (Pipeline.arrRef spec2 1)) hb h0 :=
  (dat2 V c).arrAt_eq_of_cover 2 _ (fun t _ => flushed_eq V hb h0 c t) cover

end Cert.KernelIdeal.Region2

end
-- ==== Proof.Region3.lean ====
/-
  The second dense product, block by block.

  The rows of the hidden features are cut into ten blocks of 5000 rows; the weight is read whole at every block. Block
  t of the product holds, at (p, q), the sum over k of x (5000 t + p, k) * w (k, q): rounding the operands to a
  narrower float format is the identity on extended reals, so this is entry (5000 t + p, q) of the whole product of
  the two arrays. The ten blocks tile the 50000 rows, so the array written back is the whole product.
-/
import proofs.«155307_j64836826300546_2_alg».proof.Proof.Gen.KernelIdeal.Frame
import proofs.«155307_j64836826300546_2_alg».proof.Proof.LibRowBlocks
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the hidden features and the weight. -/
abbrev G (X : FVec Ideal S50000x128 .f32) (W : FVec Ideal S128x64 .f32) : FVec Ideal S50000x64 .f32 :=
  Host.dotGeneral (F := Ideal) (DotDims.plain 50000 128 64) none X W

/-- A block of rows of the product is the whole product at those rows. -/
theorem pay_apply (x0 : Vec Ideal S5000x128 .f32) (x1 : Vec Ideal S128x64 .f32) (X : FVec Ideal S50000x128 .f32)
    (W : FVec Ideal S128x64 .f32) (row : Fin 5000 → Fin 50000) (hx : ∀ p k, x0 (ix2 p k) = X (ix2 (row p) k))
    (hw : ∀ k q, x1 (ix2 k q) = W (ix2 k q)) (p : Fin 5000) (q : Fin 64) :
    k3_pay1 x0 x1 (ix2 p q) = G X W (ix2 (row p) q) := by
  unfold k3_pay1
  simp only [shapeCast_self]
  exact Cert.Lib.RowBlocks.matmul_rows_apply (ψ := .bf16) bitsLt_bf16_f32 x0 x1 X W row hx hw p q

/-- Where the three windows' blocks sit at grid point t: block row t of the features and of the product, the
    weight's one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

theorem N_eq : cfg3.N = 10 := by decide

/-- What grid point t writes back is block t of the whole product. -/
theorem flushed_eq (c : Dev nD) (t : Fin cfg3.N) :
    (dat3 V c).flushed 2 t = ((cfg3.win 2).blk t).view.read (Elt Ideal)
      (G (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x64) hz]
  obtain ⟨e0, e1, e2, e3, e4, e5, ht⟩ := idx_facts t
  funext j
  obtain ⟨p, q, rfl⟩ : ∃ (p : Fin 5000) (q : Fin 64), j = ix2 p q := ⟨j 0, j 1, eq_ix2 j⟩
  have hrow : ∀ p : Fin 5000, t.val * 5000 + p.val < 50000 := fun p => by have := p.isLt; omega
  have hemb : ((cfg3.win 2).blk t).view.emb (ix2 p q) = ix2 (⟨t.val * 5000 + p.val, hrow p⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  show k3_pay1 (iblk3 V c 0 t) (iblk3 V c 1 t) (ix2 p q) = G _ _ (((cfg3.win 2).blk t).view.emb (ix2 p q))
  rw [hemb]
  refine pay_apply (iblk3 V c 0 t) (iblk3 V c 1 t) _ _ (fun p => ⟨t.val * 5000 + p.val, hrow p⟩) ?_ ?_ p q
  · intro p k
    show V c (Pipeline.arrRef spec3 0) (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k q
    show V c (Pipeline.arrRef spec3 1) (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 64 + 1 * q.val = q.val; omega

/-- An index of the product lies in block t exactly when its row is among the block's 5000 rows. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v47).slice (win3_2.rect t)).set ↔ _
  rw [View.set_slice_whole, Rect.mem_set_unit]
  exact Iff.rfl

/-- The ten blocks cover the array: row r is in block r / 5000. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  refine ⟨⟨(i 0).val / 5000, by rw [N_eq]; omega⟩, flush3_2 _, ?_⟩
  rw [mem_blk]
  obtain ⟨e0, e1, e2, e3, e4, e5, ht⟩ := idx_facts ⟨(i 0).val / 5000, by rw [N_eq]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e5]; omega

/-- The array the second product leaves: the whole product of the two arrays the region was entered with. -/
theorem final (c : Dev nD) :
    (dat3 V c).arrAt 2 cfg3.N = G (V c (Pipeline.arrRef spec3 0)) (V c (Pipeline.arrRef spec3 1)) :=
  (dat3 V c).arrAt_eq_of_cover 2 _ (fun t _ => flushed_eq V c t) cover

end Cert.KernelIdeal.Region3

end
-- ==== Proof.Region4.lean ====
/-
  The edge scale of a layer, block by block.

  The 850000 edges (self loops included) are cut into 85 blocks of 10000; a block holds the rows the gather brought for
  its edges, and the same edges' coefficients as a column. Block t of the result holds, at (p, q), the message entry
  times the coefficient of edge 10000 t + p, which is entry (10000 t + p, q) of the whole array of messages times the
  column of coefficients spread over the 64 features. The blocks tile the edges, so the array written back is that
  whole product.
-/
import proofs.«155307_j64836826300546_2_alg».proof.Proof.Gen.KernelIdeal.Frame
import proofs.«155307_j64836826300546_2_alg».proof.Proof.LibColBroadcast
import proofs.«155307_j64836826300546_2_alg».proof.Proof.LibEdgeReads
import Idealize.ShloMosaic.Lib.Pipeline.Value
import Idealize.ShloMosaic.Lib.ValueIdx
import Idealize.ShloMosaic.Lib.ValueLayout

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Each edge's row of messages times the edge's coefficient, as one array. -/
abbrev G (g : FVec Ideal S850000x64 .f32) (col : FVec Ideal S850000x1 .f32)
    (hb : S850000x1.BroadcastsInDim S850000x64 (![0, 1] : Fin 2 → Fin S850000x64.rank)) : FVec Ideal S850000x64 .f32 :=
  mulf g (broadcastInDim S850000x64 ![0, 1] hb col)

/-- A block of edges of the scaled messages is the whole array at those edges. -/
theorem pay_apply (x1 : Vec Ideal S10000x1 .f32) (x0 : Vec Ideal S10000x64 .f32) (g : FVec Ideal S850000x64 .f32)
    (col : FVec Ideal S850000x1 .f32) (hb : S850000x1.BroadcastsInDim S850000x64 (![0, 1] : Fin 2 → Fin S850000x64.rank))
    (row : Fin 10000 → Fin 850000) (hg : ∀ p q, x0 (ix2 p q) = g (ix2 (row p) q))
    (hc : ∀ p, x1 (ix2 p (0 : Fin 1)) = col (ix2 (row p) (0 : Fin 1))) (p : Fin 10000) (q : Fin 64) :
    k4_pay1 x1 x0 (ix2 p q) = G g col hb (ix2 (row p) q) := by
  unfold k4_pay1
  simp only [shapeCast_self]
  show _ = mulf g (broadcastInDim S850000x64 ![0, 1] hb col) (ix2 (row p) q)
  rw [mulf_apply, mulf_apply, Cert.Lib.ColBroadcast.broadcastTo_a1_ab_apply, Cert.Lib.EdgeReads.column_broadcast_apply, hg, hc]

/-- Where the three windows' blocks sit at grid point t: block row t of each array. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 ∧ t.val < 85 :=
  (by decide +kernel : ∀ t : Fin grid4.N, _)

theorem N_eq : cfg4.N = 85 := by decide

/-- What grid point t writes back is block t of the whole scaled array. -/
theorem flushed_eq (hb : S850000x1.BroadcastsInDim S850000x64 (![0, 1] : Fin 2 → Fin S850000x64.rank)) (c : Dev nD) (t : Fin cfg4.N) :
    (dat4 V c).flushed 2 t = ((cfg4.win 2).blk t).view.read (Elt Ideal)
      (G (V c (Pipeline.arrRef spec4 0)) (V c (Pipeline.arrRef spec4 1)) hb) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  obtain ⟨e0, e1, e2, e3, e4, e5, ht⟩ := idx_facts t
  funext j
  obtain ⟨p, q, rfl⟩ : ∃ (p : Fin 10000) (q : Fin 64), j = ix2 p q := ⟨j 0, j 1, eq_ix2 j⟩
  have hrow : ∀ p : Fin 10000, t.val * 10000 + p.val < 850000 := fun p => by have := p.isLt; omega
  have hemb : ((cfg4.win 2).blk t).view.emb (ix2 p q) = ix2 (⟨t.val * 10000 + p.val, hrow p⟩ : Fin 850000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show k4_pay1 (iblk4 V c 1 t) (iblk4 V c 0 t) (ix2 p q) = G _ _ hb (((cfg4.win 2).blk t).view.emb (ix2 p q))
  rw [hemb]
  refine pay_apply (iblk4 V c 1 t) (iblk4 V c 0 t) _ _ hb (fun p => ⟨t.val * 10000 + p.val, hrow p⟩) ?_ ?_ p q
  · intro p q
    show V c (Pipeline.arrRef spec4 0) (((cfg4.win 0).blk t).view.emb (ix2 p q)) = _
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * q.val = q.val; omega
  · intro p
    show V c (Pipeline.arrRef spec4 1) (((cfg4.win 1).blk t).view.emb (ix2 p (0 : Fin 1))) = _
    refine congrArg _ (funext fun a => Fin.ext ?_)
    match a with
    | ⟨0, _⟩ => show win4_1.index t (0 : Fin 2) * 10000 + 1 * p.val = t.val * 10000 + p.val; omega
    | ⟨1, _⟩ => show win4_1.index t (1 : Fin 2) * 1 + 1 * 0 = 0; omega

/-- An index of the array lies in block t exactly when its row is among the block's 10000 rows. -/
theorem mem_blk (t : Fin cfg4.N) (i : S850000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v56).slice (win4_2.rect t)).set ↔ _
  rw [View.set_slice_whole, Rect.mem_set_unit]
  exact Iff.rfl

/-- The 85 blocks cover the array: row r is in block r / 10000. -/
theorem cover (i : S850000x64.Idx) :
    ∃ t : Fin cfg4.N, (cfg4.win 2).flush t = true ∧ i ∈ ((cfg4.win 2).blk t).view.set := by
  have hi0 : (i 0).val < 850000 := (i 0).isLt
  have hi1 : (i 1).val < 64 := (i 1).isLt
  refine ⟨⟨(i 0).val / 10000, by rw [N_eq]; omega⟩, flush4_2 _, ?_⟩
  rw [mem_blk]
  obtain ⟨e0, e1, e2, e3, e4, e5, ht⟩ := idx_facts ⟨(i 0).val / 10000, by rw [N_eq]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 64 ≤ (i 1).val ∧ (i 1).val < win4_2.index _ (1 : Fin 2) * 64 + 64
    rw [e5]; omega

/-- The array the edge scale leaves: the messages times the spread column of coefficients, of the two arrays the
    region was entered with. -/
theorem final (hb : S850000x1.BroadcastsInDim S850000x64 (![0, 1] : Fin 2 → Fin S850000x64.rank)) (c : Dev nD) :
    (dat4 V c).arrAt 2 cfg4.N = G (V c (Pipeline.arrRef spec4 0)) (V c (Pipeline.arrRef spec4 1)) hb :=
  (dat4 V c).arrAt_eq_of_cover 2 _ (fun t _ => flushed_eq V hb c t) cover

end Cert.KernelIdeal.Region4

end
-- ==== Proof.Region5.lean ====
/-
  The bias of a layer, block by block.

  The 50000 nodes are cut into 10 blocks of 5000; the bias is one row read whole at every block. Block t of the result
  holds, at (p, q), the aggregated entry of node 5000 t + p plus the bias at q: entry
  (5000 t + p, q) of the whole array plus the bias row spread down the nodes. The
  blocks tile the nodes, so the array written back is that whole array.
-/
import proofs.«155307_j64836826300546_2_alg».proof.Proof.Gen.KernelIdeal.Frame
import proofs.«155307_j64836826300546_2_alg».proof.Proof.LibRowBroadcastInDim
import proofs.«155307_j64836826300546_2_alg».proof.Proof.LibReshapeBroadcast
import Idealize.ShloMosaic.Lib.Pipeline.Value
import Idealize.ShloMosaic.Lib.ValueIdx
import Idealize.ShloMosaic.Lib.ValueLayout

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The aggregated features plus the bias row spread down the nodes, as one array. -/
abbrev G (A : FVec Ideal S50000x64 .f32) (brow : FVec Ideal S1x64 .f32)
    (hb : S1x64.BroadcastsInDim S50000x64 (![0, 1] : Fin 2 → Fin S50000x64.rank)) : FVec Ideal S50000x64 .f32 :=
  addf A (broadcastInDim S50000x64 ![0, 1] hb brow)

/-- A block of nodes of the layer's output is the whole array at those nodes. -/
theorem pay_apply (x0 : Vec Ideal S5000x64 .f32) (x1 : Vec Ideal S1x64 .f32) (A : FVec Ideal S50000x64 .f32)
    (brow : FVec Ideal S1x64 .f32) (hb : S1x64.BroadcastsInDim S50000x64 (![0, 1] : Fin 2 → Fin S50000x64.rank))
    (row : Fin 5000 → Fin 50000) (hx : ∀ p q, x0 (ix2 p q) = A (ix2 (row p) q))
    (hr : ∀ q, x1 (ix2 (0 : Fin 1) q) = brow (ix2 (0 : Fin 1) q)) (p : Fin 5000) (q : Fin 64) :
    k5_pay1 x0 x1 (ix2 p q) = G A brow hb (ix2 (row p) q) := by
  unfold k5_pay1
  simp only [shapeCast_self]
  show _ = addf A (broadcastInDim S50000x64 ![0, 1] hb brow) (ix2 (row p) q)
  rw [addf_apply, addf_apply, broadcastTo_1b_ab_apply, Cert.Lib.RowBroadcastInDim.row_broadcast_apply, hx, hr]

/-- Where the three windows' blocks sit at grid point t: block row t of the aggregate and of the output, the bias
    row's one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 10 :=
  (by decide +kernel : ∀ t : Fin grid5.N, _)

theorem N_eq : cfg5.N = 10 := by decide

/-- What grid point t writes back is block t of the whole output array. -/
theorem flushed_eq (hb : S1x64.BroadcastsInDim S50000x64 (![0, 1] : Fin 2 → Fin S50000x64.rank)) (c : Dev nD) (t : Fin cfg5.N) :
    (dat5 V c).flushed 2 t = ((cfg5.win 2).blk t).view.read (Elt Ideal)
      (G (V c (Pipeline.arrRef spec5 0)) (V c (Pipeline.arrRef spec5 1)) hb) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5, ht⟩ := idx_facts t
  funext j
  obtain ⟨p, q, rfl⟩ : ∃ (p : Fin 5000) (q : Fin 64), j = ix2 p q := ⟨j 0, j 1, eq_ix2 j⟩
  have hrow : ∀ p : Fin 5000, t.val * 5000 + p.val < 50000 := fun p => by have := p.isLt; omega
  have hemb : ((cfg5.win 2).blk t).view.emb (ix2 p q) = ix2 (⟨t.val * 5000 + p.val, hrow p⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  show k5_pay1 (iblk5 V c 0 t) (iblk5 V c 1 t) (ix2 p q) = G _ _ hb (((cfg5.win 2).blk t).view.emb (ix2 p q))
  rw [hemb]
  refine pay_apply (iblk5 V c 0 t) (iblk5 V c 1 t) _ _ hb (fun p => ⟨t.val * 5000 + p.val, hrow p⟩) ?_ ?_ p q
  · intro p q
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 64 + 1 * q.val = q.val; omega
  · intro q
    show V c (Pipeline.arrRef spec5 1) (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega

/-- An index of the array lies in block t exactly when its row is among the block's 5000 rows. -/
theorem mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v61).slice (win5_2.rect t)).set ↔ _
  rw [View.set_slice_whole, Rect.mem_set_unit]
  exact Iff.rfl

/-- The 10 blocks cover the array: row r is in block r / 5000. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  refine ⟨⟨(i 0).val / 5000, by rw [N_eq]; omega⟩, flush5_2 _, ?_⟩
  rw [mem_blk]
  obtain ⟨e0, e1, e2, e3, e4, e5, ht⟩ := idx_facts ⟨(i 0).val / 5000, by rw [N_eq]; omega⟩
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 64 ≤ (i 1).val ∧ (i 1).val < win5_2.index _ (1 : Fin 2) * 64 + 64
    rw [e5]; omega

/-- The array the layer's last step leaves, of the two arrays the region was entered with. -/
theorem final (hb : S1x64.BroadcastsInDim S50000x64 (![0, 1] : Fin 2 → Fin S50000x64.rank)) (c : Dev nD) :
    (dat5 V c).arrAt 2 cfg5.N = G (V c (Pipeline.arrRef spec5 0)) (V c (Pipeline.arrRef spec5 1)) hb :=
  (dat5 V c).arrAt_eq_of_cover 2 _ (fun t _ => flushed_eq V hb c t) cover

end Cert.KernelIdeal.Region5

end
-- ==== Proof.Stages1.lean ====
/-
  The two layers, boundary by boundary.

  After the normalisation the idealized kernel alternates tiled regions and short stretches of host operations: a
  dense product, a gather of the product's rows by source node, the edge scale, a scatter-add by destination node, the
  bias (and for the first layer the positive part); then the same again for the second layer. Each region leaves the
  whole-array function of the arrays it was entered with; each host stretch is read over an arbitrary state of the
  buffers. Chained from the first region's entry, every buffer a later step reads holds the reference's stage of the
  arguments: the reference applies the same gather and scatter-add to the same index vectors, and its product, scale
  and bias are the regions' whole-array functions. Two layouts differ in spelling only: the kernel reshapes the
  coefficient vector to a column and each bias vector to a row where the reference broadcasts them, and the two are
  the same arrays.
-/
import proofs.«155307_j64836826300546_2_alg».proof.Proof.Stages0
import proofs.«155307_j64836826300546_2_alg».proof.Proof.Region0
import proofs.«155307_j64836826300546_2_alg».proof.Proof.Region1
import proofs.«155307_j64836826300546_2_alg».proof.Proof.Region2
import proofs.«155307_j64836826300546_2_alg».proof.Proof.Region3
import proofs.«155307_j64836826300546_2_alg».proof.Proof.Region4
import proofs.«155307_j64836826300546_2_alg».proof.Proof.Region5
import proofs.«155307_j64836826300546_2_alg».proof.Proof.LibReshapeBroadcast
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The host stretches over any buffer contents -/

section Generic

variable (V : Valuation τ sig (Elt Ideal))

theorem H1s_main_v39 : StableHlo.after hostOps1 V (Proc.devRef .tc main_v39)
    = Host.gather gather_S50000x128_S850000x1_S850000x128_1_0_n_n_0_1_1128 (V (Proc.devRef .tc main_v32)) (wrapIdx (V (Proc.devRef .tc main_v5))) := by
  dsimp only [hostOps1]
  after_results_simp
  rfl

theorem H1s_main_v40 : StableHlo.after hostOps1 V (Proc.devRef .tc main_v40)
    = shapeCast S850000x1 (V (Proc.devRef .tc main_v31)) shapeCasts_S850000_S850000x1 := by
  dsimp only [hostOps1]
  after_results_simp
  rfl

theorem H2s_main_v44 : StableHlo.after hostOps2 V (Proc.devRef .tc main_v44)
    = Host.scatterAdd (F := Ideal) scatter_S50000x128_S850000x1_S850000x128_1_0_0_1
        (broadcastInDim S50000x128 ![] bcast_S_S50000x128 (constant S_ .f32 0x00000000#32))
        (broadcastInDim S850000x1 ![0] bcast_S850000_S850000x1_0 (V (Proc.devRef .tc main_v6))) (V (Proc.devRef .tc main_v41)) := by
  dsimp only [hostOps2]
  after_results_simp

theorem H2s_main_v45 : StableHlo.after hostOps2 V (Proc.devRef .tc main_v45)
    = shapeCast S1x128 (V (Proc.devRef .tc main_arg3)) shapeCasts_S128_S1x128 := by
  dsimp only [hostOps2]
  after_results_simp
  rfl

theorem H4s_main_v54 : StableHlo.after hostOps4 V (Proc.devRef .tc main_v54)
    = Host.gather gather_S50000x64_S850000x1_S850000x64_1_0_n_n_0_1_164 (V (Proc.devRef .tc main_v47)) (wrapIdx (V (Proc.devRef .tc main_v5))) := by
  dsimp only [hostOps4]
  after_results_simp
  rfl

theorem H4s_main_v55 : StableHlo.after hostOps4 V (Proc.devRef .tc main_v55)
    = shapeCast S850000x1 (V (Proc.devRef .tc main_v31)) shapeCasts_S850000_S850000x1 := by
  dsimp only [hostOps4]
  after_results_simp
  rfl

theorem H5s_main_v59 : StableHlo.after hostOps5 V (Proc.devRef .tc main_v59)
    = Host.scatterAdd (F := Ideal) scatter_S50000x64_S850000x1_S850000x64_1_0_0_1
        (broadcastInDim S50000x64 ![] bcast_S_S50000x64 (constant S_ .f32 0x00000000#32))
        (broadcastInDim S850000x1 ![0] bcast_S850000_S850000x1_0 (V (Proc.devRef .tc main_v6))) (V (Proc.devRef .tc main_v56)) := by
  dsimp only [hostOps5]
  after_results_simp

theorem H5s_main_v60 : StableHlo.after hostOps5 V (Proc.devRef .tc main_v60)
    = shapeCast S1x64 (V (Proc.devRef .tc main_arg5)) shapeCasts_S64_S1x64 := by
  dsimp only [hostOps5]
  after_results_simp
  rfl

end Generic

/-! ## The first layer -/

/-- After the first region: the product of the features and the first weight. -/
theorem L4_main_v32 : W4 m ρ c (Proc.devRef .tc main_v32) = Cert.ReferenceIdeal.Read.val_main_v32 (F := Ideal) (m ((c : Thread nD τ).loc main_arg0)) (m ((c : Thread nD τ).loc main_arg2)) :=
  (W4_arr m ρ c 2).trans ((Region0.final (V3 m ρ) c).trans
    ((congrArg₂ Region0.G (K3_main_arg0 m ρ c) (K3_main_arg2 m ρ c)).trans rfl))
theorem K4_main_v5 : W4 m ρ c (Proc.devRef .tc main_v5) = Cert.ReferenceIdeal.Read.val_main_v5 (F := Ideal) (m ((c : Thread nD τ).loc main_arg6)) :=
  (W4_of_ne m ρ c main_v5 (by decide)).trans (K3_main_v5 m ρ c)
theorem K4_main_v31 : W4 m ρ c (Proc.devRef .tc main_v31) = Cert.ReferenceIdeal.Read.val_main_v31 (F := Ideal) (m ((c : Thread nD τ).loc main_arg1)) (m ((c : Thread nD τ).loc main_arg6)) :=
  (W4_of_ne m ρ c main_v31 (by decide)).trans (K3_main_v31 m ρ c)
theorem K4_main_v6 : W4 m ρ c (Proc.devRef .tc main_v6) = Cert.ReferenceIdeal.Read.val_main_v6 (F := Ideal) (m ((c : Thread nD τ).loc main_arg6)) :=
  (W4_of_ne m ρ c main_v6 (by decide)).trans (K3_main_v6 m ρ c)
theorem K4_main_arg3 : W4 m ρ c (Proc.devRef .tc main_arg3) = (m ((c : Thread nD τ).loc main_arg3)) :=
  (W4_of_ne m ρ c main_arg3 (by decide)).trans (K3_main_arg3 m ρ c)
theorem K4_main_arg4 : W4 m ρ c (Proc.devRef .tc main_arg4) = (m ((c : Thread nD τ).loc main_arg4)) :=
  (W4_of_ne m ρ c main_arg4 (by decide)).trans (K3_main_arg4 m ρ c)
theorem K4_main_arg5 : W4 m ρ c (Proc.devRef .tc main_arg5) = (m ((c : Thread nD τ).loc main_arg5)) :=
  (W4_of_ne m ρ c main_arg5 (by decide)).trans (K3_main_arg5 m ρ c)

/-- The product's rows gathered by source node. -/
theorem L5_main_v39 : W5 m ρ c (Proc.devRef .tc main_v39) = Cert.ReferenceIdeal.Read.val_main_v39 (F := Ideal) (m ((c : Thread nD τ).loc main_arg0)) (m ((c : Thread nD τ).loc main_arg2)) (m ((c : Thread nD τ).loc main_arg6)) := by
  refine (H1s_main_v39 (W4 m ρ c)).trans ?_
  rw [L4_main_v32, K4_main_v5]
  rfl
/-- The coefficients as a column: the reshape the kernel writes is the broadcast the reference writes. -/
theorem L5_main_v40 : W5 m ρ c (Proc.devRef .tc main_v40) = Cert.ReferenceIdeal.Read.val_main_v40 (F := Ideal) (m ((c : Thread nD τ).loc main_arg1)) (m ((c : Thread nD τ).loc main_arg6)) := by
  refine (H1s_main_v40 (W4 m ρ c)).trans ?_
  rw [K4_main_v31]
  exact Cert.Lib.ReshapeBroadcast.reshape_col_eq_broadcast _ _ _
theorem K5_main_v5 : W5 m ρ c (Proc.devRef .tc main_v5) = Cert.ReferenceIdeal.Read.val_main_v5 (F := Ideal) (m ((c : Thread nD τ).loc main_arg6)) :=
  (show W5 m ρ c (Proc.devRef .tc main_v5) = W4 m ρ c (Proc.devRef .tc main_v5) from by not_written_by hostOps1).trans (K4_main_v5 m ρ c)
theorem K5_main_v31 : W5 m ρ c (Proc.devRef .tc main_v31) = Cert.ReferenceIdeal.Read.val_main_v31 (F := Ideal) (m ((c : Thread nD τ).loc main_arg1)) (m ((c : Thread nD τ).loc main_arg6)) :=
  (show W5 m ρ c (Proc.devRef .tc main_v31) = W4 m ρ c (Proc.devRef .tc main_v31) from by not_written_by hostOps1).trans (K4_main_v31 m ρ c)
theorem K5_main_v6 : W5 m ρ c (Proc.devRef .tc main_v6) = Cert.ReferenceIdeal.Read.val_main_v6 (F := Ideal) (m ((c : Thread nD τ).loc main_arg6)) :=
  (show W5 m ρ c (Proc.devRef .tc main_v6) = W4 m ρ c (Proc.devRef .tc main_v6) from by not_written_by hostOps1).trans (K4_main_v6 m ρ c)
theorem K5_main_arg3 : W5 m ρ c (Proc.devRef .tc main_arg3) = (m ((c : Thread nD τ).loc main_arg3)) :=
  (show W5 m ρ c (Proc.devRef .tc main_arg3) = W4 m ρ c (Proc.devRef .tc main_arg3) from by not_written_by hostOps1).trans (K4_main_arg3 m ρ c)
theorem K5_main_arg4 : W5 m ρ c (Proc.devRef .tc main_arg4) = (m ((c : Thread nD τ).loc main_arg4)) :=
  (show W5 m ρ c (Proc.devRef .tc main_arg4) = W4 m ρ c (Proc.devRef .tc main_arg4) from by not_written_by hostOps1).trans (K4_main_arg4 m ρ c)
theorem K5_main_arg5 : W5 m ρ c (Proc.devRef .tc main_arg5) = (m ((c : Thread nD τ).loc main_arg5)) :=
  (show W5 m ρ c (Proc.devRef .tc main_arg5) = W4 m ρ c (Proc.devRef .tc main_arg5) from by not_written_by hostOps1).trans (K4_main_arg5 m ρ c)

/-- After the second region: the gathered rows times their coefficients. -/
theorem L6_main_v41 : W6 m ρ c (Proc.devRef .tc main_v41) = Cert.ReferenceIdeal.Read.val_main_v42 (F := Ideal) (m ((c : Thread nD τ).loc main_arg0)) (m ((c : Thread nD τ).loc main_arg1)) (m ((c : Thread nD τ).loc main_arg2)) (m ((c : Thread nD τ).loc main_arg6)) :=
  (W6_arr m ρ c 2).trans ((Region1.final (V5 m ρ) Cert.ReferenceIdeal.Facts₀.bcast_S850000x1_S850000x128_0_1 c).trans
    ((congrArg₂ (fun a b => Region1.G a b Cert.ReferenceIdeal.Facts₀.bcast_S850000x1_S850000x128_0_1) (L5_main_v39 m ρ c) (L5_main_v40 m ρ c)).trans rfl))
theorem K6_main_v5 : W6 m ρ c (Proc.devRef .tc main_v5) = Cert.ReferenceIdeal.Read.val_main_v5 (F := Ideal) (m ((c : Thread nD τ).loc main_arg6)) :=
  (W6_of_ne m ρ c main_v5 (by decide)).trans (K5_main_v5 m ρ c)
theorem K6_main_v31 : W6 m ρ c (Proc.devRef .tc main_v31) = Cert.ReferenceIdeal.Read.val_main_v31 (F := Ideal) (m ((c : Thread nD τ).loc main_arg1)) (m ((c : Thread nD τ).loc main_arg6)) :=
  (W6_of_ne m ρ c main_v31 (by decide)).trans (K5_main_v31 m ρ c)
theorem K6_main_v6 : W6 m ρ c (Proc.devRef .tc main_v6) = Cert.ReferenceIdeal.Read.val_main_v6 (F := Ideal) (m ((c : Thread nD τ).loc main_arg6)) :=
  (W6_of_ne m ρ c main_v6 (by decide)).trans (K5_main_v6 m ρ c)
theorem K6_main_arg3 : W6 m ρ c (Proc.devRef .tc main_arg3) = (m ((c : Thread nD τ).loc main_arg3)) :=
  (W6_of_ne m ρ c main_arg3 (by decide)).trans (K5_main_arg3 m ρ c)
theorem K6_main_arg4 : W6 m ρ c (Proc.devRef .tc main_arg4) = (m ((c : Thread nD τ).loc main_arg4)) :=
  (W6_of_ne m ρ c main_arg4 (by decide)).trans (K5_main_arg4 m ρ c)
theorem K6_main_arg5 : W6 m ρ c (Proc.devRef .tc main_arg5) = (m ((c : Thread nD τ).loc main_arg5)) :=
  (W6_of_ne m ρ c main_arg5 (by decide)).trans (K5_main_arg5 m ρ c)

/-- The scaled messages summed into their destination nodes. -/
theorem L7_main_v44 : W7 m ρ c (Proc.devRef .tc main_v44) = Cert.ReferenceIdeal.Read.val_main_v45 (F := Ideal) (m ((c : Thread nD τ).loc main_arg0)) (m ((c : Thread nD τ).loc main_arg1)) (m ((c : Thread nD τ).loc main_arg2)) (m ((c : Thread nD τ).loc main_arg6)) := by
  refine (H2s_main_v44 (W6 m ρ c)).trans ?_
  rw [K6_main_v6, L6_main_v41]
  rfl
/-- The first bias as a row: the reshape the kernel writes is the broadcast the reference writes. -/
theorem L7_main_v45 : W7 m ρ c (Proc.devRef .tc main_v45) = Cert.ReferenceIdeal.Read.val_main_v46 (F := Ideal) (m ((c : Thread nD τ).loc main_arg3)) := by
  refine (H2s_main_v45 (W6 m ρ c)).trans ?_
  rw [K6_main_arg3]
  exact Cert.Lib.ReshapeBroadcast.reshape_row_eq_broadcast _ _ _
theorem K7_main_v5 : W7 m ρ c (Proc.devRef .tc main_v5) = Cert.ReferenceIdeal.Read.val_main_v5 (F := Ideal) (m ((c : Thread nD τ).loc main_arg6)) :=
  (show W7 m ρ c (Proc.devRef .tc main_v5) = W6 m ρ c (Proc.devRef .tc main_v5) from by not_written_by hostOps2).trans (K6_main_v5 m ρ c)
theorem K7_main_v31 : W7 m ρ c (Proc.devRef .tc main_v31) = Cert.ReferenceIdeal.Read.val_main_v31 (F := Ideal) (m ((c : Thread nD τ).loc main_arg1)) (m ((c : Thread nD τ).loc main_arg6)) :=
  (show W7 m ρ c (Proc.devRef .tc main_v31) = W6 m ρ c (Proc.devRef .tc main_v31) from by not_written_by hostOps2).trans (K6_main_v31 m ρ c)
theorem K7_main_v6 : W7 m ρ c (Proc.devRef .tc main_v6) = Cert.ReferenceIdeal.Read.val_main_v6 (F := Ideal) (m ((c : Thread nD τ).loc main_arg6)) :=
  (show W7 m ρ c (Proc.devRef .tc main_v6) = W6 m ρ c (Proc.devRef .tc main_v6) from by not_written_by hostOps2).trans (K6_main_v6 m ρ c)
theorem K7_main_arg4 : W7 m ρ c (Proc.devRef .tc main_arg4) = (m ((c : Thread nD τ).loc main_arg4)) :=
  (show W7 m ρ c (Proc.devRef .tc main_arg4) = W6 m ρ c (Proc.devRef .tc main_arg4) from by not_written_by hostOps2).trans (K6_main_arg4 m ρ c)
theorem K7_main_arg5 : W7 m ρ c (Proc.devRef .tc main_arg5) = (m ((c : Thread nD τ).loc main_arg5)) :=
  (show W7 m ρ c (Proc.devRef .tc main_arg5) = W6 m ρ c (Proc.devRef .tc main_arg5) from by not_written_by hostOps2).trans (K6_main_arg5 m ρ c)

/-- After the third region: the first layer's output, the first result. -/
theorem K8_main_v46 : W8 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  (W8_arr m ρ c 2).trans ((Region2.final (V7 m ρ) Cert.ReferenceIdeal.Facts₀.bcast_S1x128_S50000x128_0_1 Cert.ReferenceIdeal.Facts₀.bcast_S_S50000x128 c).trans
    ((congrArg₂ (fun a b => Region2.G a b Cert.ReferenceIdeal.Facts₀.bcast_S1x128_S50000x128_0_1 Cert.ReferenceIdeal.Facts₀.bcast_S_S50000x128) (L7_main_v44 m ρ c) (L7_main_v45 m ρ c)).trans rfl))
theorem K8_main_v5 : W8 m ρ c (Proc.devRef .tc main_v5) = Cert.ReferenceIdeal.Read.val_main_v5 (F := Ideal) (m ((c : Thread nD τ).loc main_arg6)) :=
  (W8_of_ne m ρ c main_v5 (by decide)).trans (K7_main_v5 m ρ c)
theorem K8_main_v31 : W8 m ρ c (Proc.devRef .tc main_v31) = Cert.ReferenceIdeal.Read.val_main_v31 (F := Ideal) (m ((c : Thread nD τ).loc main_arg1)) (m ((c : Thread nD τ).loc main_arg6)) :=
  (W8_of_ne m ρ c main_v31 (by decide)).trans (K7_main_v31 m ρ c)
theorem K8_main_v6 : W8 m ρ c (Proc.devRef .tc main_v6) = Cert.ReferenceIdeal.Read.val_main_v6 (F := Ideal) (m ((c : Thread nD τ).loc main_arg6)) :=
  (W8_of_ne m ρ c main_v6 (by decide)).trans (K7_main_v6 m ρ c)
theorem K8_main_arg4 : W8 m ρ c (Proc.devRef .tc main_arg4) = (m ((c : Thread nD τ).loc main_arg4)) :=
  (W8_of_ne m ρ c main_arg4 (by decide)).trans (K7_main_arg4 m ρ c)
theorem K8_main_arg5 : W8 m ρ c (Proc.devRef .tc main_arg5) = (m ((c : Thread nD τ).loc main_arg5)) :=
  (W8_of_ne m ρ c main_arg5 (by decide)).trans (K7_main_arg5 m ρ c)

/-! ## The second layer -/

/-- After the fourth region: the product of the first layer's output and the second weight. -/
theorem L9_main_v47 : W9 m ρ c (Proc.devRef .tc main_v47) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (W9_arr m ρ c 2).trans ((Region3.final (V8 m ρ) c).trans
    ((congrArg₂ Region3.G (K8_main_v46 m ρ c) (K8_main_arg4 m ρ c)).trans rfl))
/-- The fourth region reads the first result and leaves it in place. -/
theorem K9_main_v46 : W9 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  ((W9_arr m ρ c 0).trans (((dat3 (V8 m ρ) c).arrAt_in 0 rfl _).trans (A_eq3 (V8 m ρ) c 0))).trans (K8_main_v46 m ρ c)
theorem K9_main_v5 : W9 m ρ c (Proc.devRef .tc main_v5) = Cert.ReferenceIdeal.Read.val_main_v5 (F := Ideal) (m ((c : Thread nD τ).loc main_arg6)) :=
  (W9_of_ne m ρ c main_v5 (by decide)).trans (K8_main_v5 m ρ c)
theorem K9_main_v31 : W9 m ρ c (Proc.devRef .tc main_v31) = Cert.ReferenceIdeal.Read.val_main_v31 (F := Ideal) (m ((c : Thread nD τ).loc main_arg1)) (m ((c : Thread nD τ).loc main_arg6)) :=
  (W9_of_ne m ρ c main_v31 (by decide)).trans (K8_main_v31 m ρ c)
theorem K9_main_v6 : W9 m ρ c (Proc.devRef .tc main_v6) = Cert.ReferenceIdeal.Read.val_main_v6 (F := Ideal) (m ((c : Thread nD τ).loc main_arg6)) :=
  (W9_of_ne m ρ c main_v6 (by decide)).trans (K8_main_v6 m ρ c)
theorem K9_main_arg5 : W9 m ρ c (Proc.devRef .tc main_arg5) = (m ((c : Thread nD τ).loc main_arg5)) :=
  (W9_of_ne m ρ c main_arg5 (by decide)).trans (K8_main_arg5 m ρ c)

theorem L10_main_v54 : W10 m ρ c (Proc.devRef .tc main_v54) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (H4s_main_v54 (W9 m ρ c)).trans ?_
  rw [L9_main_v47, K9_main_v5]
  rfl
theorem L10_main_v55 : W10 m ρ c (Proc.devRef .tc main_v55) = Cert.ReferenceIdeal.Read.val_main_v58 (F := Ideal) (m ((c : Thread nD τ).loc main_arg1)) (m ((c : Thread nD τ).loc main_arg6)) := by
  refine (H4s_main_v55 (W9 m ρ c)).trans ?_
  rw [K9_main_v31]
  exact Cert.Lib.ReshapeBroadcast.reshape_col_eq_broadcast _ _ _
theorem K10_main_v6 : W10 m ρ c (Proc.devRef .tc main_v6) = Cert.ReferenceIdeal.Read.val_main_v6 (F := Ideal) (m ((c : Thread nD τ).loc main_arg6)) :=
  (show W10 m ρ c (Proc.devRef .tc main_v6) = W9 m ρ c (Proc.devRef .tc main_v6) from by not_written_by hostOps4).trans (K9_main_v6 m ρ c)
theorem K10_main_arg5 : W10 m ρ c (Proc.devRef .tc main_arg5) = (m ((c : Thread nD τ).loc main_arg5)) :=
  (show W10 m ρ c (Proc.devRef .tc main_arg5) = W9 m ρ c (Proc.devRef .tc main_arg5) from by not_written_by hostOps4).trans (K9_main_arg5 m ρ c)
theorem K10_main_v46 : W10 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  (show W10 m ρ c (Proc.devRef .tc main_v46) = W9 m ρ c (Proc.devRef .tc main_v46) from by not_written_by hostOps4).trans (K9_main_v46 m ρ c)

theorem L11_main_v56 : W11 m ρ c (Proc.devRef .tc main_v56) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (W11_arr m ρ c 2).trans ((Region4.final (V10 m ρ) Cert.ReferenceIdeal.Facts₀.bcast_S850000x1_S850000x64_0_1 c).trans
    ((congrArg₂ (fun a b => Region4.G a b Cert.ReferenceIdeal.Facts₀.bcast_S850000x1_S850000x64_0_1) (L10_main_v54 m ρ c) (L10_main_v55 m ρ c)).trans rfl))
theorem K11_main_v6 : W11 m ρ c (Proc.devRef .tc main_v6) = Cert.ReferenceIdeal.Read.val_main_v6 (F := Ideal) (m ((c : Thread nD τ).loc main_arg6)) :=
  (W11_of_ne m ρ c main_v6 (by decide)).trans (K10_main_v6 m ρ c)
theorem K11_main_arg5 : W11 m ρ c (Proc.devRef .tc main_arg5) = (m ((c : Thread nD τ).loc main_arg5)) :=
  (W11_of_ne m ρ c main_arg5 (by decide)).trans (K10_main_arg5 m ρ c)
theorem K11_main_v46 : W11 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  (W11_of_ne m ρ c main_v46 (by decide)).trans (K10_main_v46 m ρ c)

theorem L12_main_v59 : W12 m ρ c (Proc.devRef .tc main_v59) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (H5s_main_v59 (W11 m ρ c)).trans ?_
  rw [K11_main_v6, L11_main_v56]
  rfl
theorem L12_main_v60 : W12 m ρ c (Proc.devRef .tc main_v60) = Cert.ReferenceIdeal.Read.val_main_v64 (F := Ideal) (m ((c : Thread nD τ).loc main_arg5)) := by
  refine (H5s_main_v60 (W11 m ρ c)).trans ?_
  rw [K11_main_arg5]
  exact Cert.Lib.ReshapeBroadcast.reshape_row_eq_broadcast _ _ _
theorem K12_main_v46 : W12 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  (show W12 m ρ c (Proc.devRef .tc main_v46) = W11 m ρ c (Proc.devRef .tc main_v46) from by not_written_by hostOps5).trans (K11_main_v46 m ρ c)

/-- After the last region: the second layer's output, the second result. -/
theorem L13_main_v61 : W13 m ρ c (Proc.devRef .tc main_v61) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W13_arr m ρ c 2).trans ((Region5.final (V12 m ρ) Cert.ReferenceIdeal.Facts₀.bcast_S1x64_S50000x64_0_1 c).trans
    ((congrArg₂ (fun a b => Region5.G a b Cert.ReferenceIdeal.Facts₀.bcast_S1x64_S50000x64_0_1) (L12_main_v59 m ρ c) (L12_main_v60 m ρ c)).trans rfl))
theorem K13_main_v46 : W13 m ρ c (Proc.devRef .tc main_v46) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg6)) :=
  (W13_of_ne m ρ c main_v46 (by decide)).trans (K12_main_v46 m ρ c)

end Cert.KernelIdeal.Stages

end
-- ==== Proof.lean ====
/-
  A two-layer graph convolution against its reference, over the extended reals.

  Both programs compute, from the node features x, the edge weights, the two weights and biases and the edge list:
  the source and destination vectors with a self loop appended per node; the weighted in-degree and its guarded
  reciprocal square root; the per-edge coefficient dinv[src] * w * dinv[dst]; and, per layer, the dense product h W,
  its rows gathered by source, each row times its edge's coefficient, the rows summed into their destination nodes,
  plus the bias (then the positive part after the first layer). The reference does all of it with host operations.
  The kernel keeps the host's gather and scatter-add and does the product, the scale and the bias in tiled regions,
  rounding the product's operands to a narrower float format first, which is the identity on extended reals.

  Each tiled region writes back blocks of rows that tile its output, and a block of rows of a product, of a row-wise
  scale or of a bias depends on the same rows of the operands only; so each region leaves the whole-array operation the
  reference applies (Region0 to Region5). The host stretches between them are the reference's own operations on the
  same buffers (Stages0, Stages1), up to a reshape written where the reference broadcasts (LibReshapeBroadcast). So the two results
  are the reference's stages of the arguments, entry by entry, with no condition on the inputs: no algebraic law is
  used beyond the equality of the operations, and the finiteness precondition is never opened.

  The idealization rewrote nothing, so it has nothing to preserve; the three frames are the generated ones (the
  reference's is its generated run with the results dropped).
-/
import proofs.«155307_j64836826300546_2_alg».proof.Defs
import proofs.«155307_j64836826300546_2_alg».proof.Proof.Gen.Kernel
import proofs.«155307_j64836826300546_2_alg».proof.Proof.Gen.Kernel.Frame
import proofs.«155307_j64836826300546_2_alg».proof.Proof.Gen.KernelIdeal
import proofs.«155307_j64836826300546_2_alg».proof.Proof.Gen.KernelIdeal.Frame
import proofs.«155307_j64836826300546_2_alg».proof.Proof.Gen.ReferenceIdeal
import proofs.«155307_j64836826300546_2_alg».proof.Proof.Gen.Pre_finite_inputs
import proofs.«155307_j64836826300546_2_alg».proof.Proof.Gen.ReferenceIdeal.Run
import proofs.«155307_j64836826300546_2_alg».proof.Proof.Gen.ReferenceIdeal.Read
import proofs.«155307_j64836826300546_2_alg».proof.Proof.KernelRun
import proofs.«155307_j64836826300546_2_alg».proof.Proof.Stages1
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the first layer's output and the second layer's output at the reference's stages of the
    arguments: the kernel by its run read through the segment boundaries, the reference by its run, from memories that
    agree on the arguments. -/
theorem algebraic : Cert.algebraic_KernelIdeal_ReferenceIdeal := by
  intro m ρ m' ρ' _ hagree
  refine ⟨fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)),
    fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.K13_main_v46 m ρ c),
        (h c).2.1.trans (Cert.KernelIdeal.Stages.L13_main_v61 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v49_eq, (hagree c).1, (hagree c).2.1, (hagree c).2.2.1, (hagree c).2.2.2.1,
        (hagree c).2.2.2.2.2.2]
    · rw [Cert.ReferenceIdeal.Read.val_main_v66_eq, (hagree c).1, (hagree c).2.1, (hagree c).2.2.1, (hagree c).2.2.2.1,
        (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
